-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x56x56 : Shape := ⟨4, ![8, 64, 56, 56]⟩
abbrev S64x64x1x1 : Shape := ⟨4, ![64, 64, 1, 1]⟩
abbrev S_ : Shape := ⟨0, ![]⟩

class Facts : Prop where
  bcast_S_S8x64x56x56 : S_.BroadcastsInDim S8x64x56x56 (![] : Fin 0 → Fin S8x64x56x56.rank)
  reducesTo_S8x64x56x56_S_d0_1_2_3 : S8x64x56x56.ReducesTo [0, 1, 2, 3] S_
  h_S_ : 0 < S_.numel
  bcast_S_S64x64x1x1 : S_.BroadcastsInDim S64x64x1x1 (![] : Fin 0 → Fin S64x64x1x1.rank)
  reducesTo_S64x64x1x1_S_d0_1_2_3 : S64x64x1x1.ReducesTo [0, 1, 2, 3] S_

variable [Facts]

def fn {F : FTy → Type} [FloatOps F] (main_arg0 : FVec F S8x64x56x56 .f32) (main_arg1 : FVec F S64x64x1x1 .f32) : IVec S_ 1 :=
  let main_v0 : FVec F S8x64x56x56 .f32 := Host.absf main_arg0
  let main_cst : FVec F S_ .f32 := constant S_ .f32 0x7F800000#32
  let main_v1 : FVec F S8x64x56x56 .f32 := broadcastInDim S8x64x56x56 ![] bcast_S_S8x64x56x56 main_cst
  let main_v2 : IVec S8x64x56x56 1 := cmpf .olt main_v0 main_v1
  let main_c : IVec S_ 1 := constantI S_ 1 1#1
  let main_v3 : IVec S_ 1 := (fun x v => Host.reduce IntOp.andi x v reducesTo_S8x64x56x56_S_d0_1_2_3 h_S_) main_v2 main_c
  let main_v4 : FVec F S64x64x1x1 .f32 := Host.absf main_arg1
  let main_cst_0 : FVec F S_ .f32 := constant S_ .f32 0x7F800000#32
  let main_v5 : FVec F S64x64x1x1 .f32 := broadcastInDim S64x64x1x1 ![] bcast_S_S64x64x1x1 main_cst_0
  let main_v6 : IVec S64x64x1x1 1 := cmpf .olt main_v4 main_v5
  let main_c_1 : IVec S_ 1 := constantI S_ 1 1#1
  let main_v7 : IVec S_ 1 := (fun x v => Host.reduce IntOp.andi x v reducesTo_S64x64x1x1_S_d0_1_2_3 h_S_) main_v6 main_c_1
  let main_v8 : IVec S_ 1 := andi main_v3 main_v7
  main_v8
-- ==== Kernel.lean ====
abbrev S8x64x56x56 : Shape := ⟨4, ![8, 64, 56, 56]⟩
abbrev S64x64x1x1 : Shape := ⟨4, ![64, 64, 1, 1]⟩
abbrev S8x64x3136 : Shape := ⟨3, ![8, 64, 3136]⟩
abbrev S64x64 : Shape := ⟨2, ![64, 64]⟩
abbrev S1x64x3136 : Shape := ⟨3, ![1, 64, 3136]⟩
abbrev S64x3136 : Shape := ⟨2, ![64, 3136]⟩
abbrev S1x8x3136 : Shape := ⟨3, ![1, 8, 3136]⟩
abbrev S8x3136 : Shape := ⟨2, ![8, 3136]⟩
abbrev S8x64 : Shape := ⟨2, ![8, 64]⟩
abbrev S8x1x3136 : Shape := ⟨3, ![8, 1, 3136]⟩
abbrev S8x64x1 : Shape := ⟨3, ![8, 64, 1]⟩

abbrev nBuf : Space → Nat
  | .hbm => 7
  | .vmem => 5
  | .smem => 0
  | _ => 0

abbrev bufTy : (tb : Table) → Fin (tcTables nBuf tb) → BufTy
  | .hbm, ⟨0, _⟩ => ⟨S8x64x56x56, .f32⟩
  | .hbm, ⟨1, _⟩ => ⟨S64x64x1x1, .f32⟩
  | .hbm, ⟨2, _⟩ => ⟨S8x64x3136, .f32⟩
  | .hbm, ⟨3, _⟩ => ⟨S64x64, .f32⟩
  | .hbm, ⟨4, _⟩ => ⟨S64x64, .f32⟩
  | .hbm, ⟨5, _⟩ => ⟨S8x64x3136, .f32⟩
  | .hbm, ⟨6, _⟩ => ⟨S8x64x56x56, .f32⟩
  | .local _ .vmem, ⟨0, _⟩ => ⟨S1x64x3136, .f32⟩
  | .local _ .vmem, ⟨1, _⟩ => ⟨S1x64x3136, .f32⟩
  | .local _ .vmem, ⟨2, _⟩ => ⟨S64x64, .f32⟩
  | .local _ .vmem, ⟨3, _⟩ => ⟨S1x64x3136, .f32⟩
  | .local _ .vmem, ⟨4, _⟩ => ⟨S1x64x3136, .f32⟩
  | _, _ => ⟨S8x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x3136 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x64x56x56_S8x64x3136 : S8x64x56x56.ShapeCasts S8x64x3136
  shapeCasts_S64x64x1x1_S64x64 : S64x64x1x1.ShapeCasts S64x64
  transposes_S64x64_S64x64_1_0 : S64x64.Transposes [1, 0] S64x64
  inb_S1x64x3136_S1x8x3136_0_0_0 : ∀ a, (![0, 0, 0] : Fin 3 → Nat) a + S1x8x3136.size a ≤ S1x64x3136.size a
  h_S1x8x3136 : 0 < S1x8x3136.numel
  shapeCasts_S1x8x3136_S8x3136 : S1x8x3136.ShapeCasts S8x3136
  inb_S64x64_S8x64_0_0 : ∀ a, (![0, 0] : Fin 2 → Nat) a + S8x64.size a ≤ S64x64.size a
  h_S8x64 : 0 < S8x64.numel
  shapeCasts_S8x64_S8x64 : S8x64.ShapeCasts S8x64
  shapeCasts_S8x3136_S8x1x3136 : S8x3136.ShapeCasts S8x1x3136
  shapeCasts_S8x64_S8x64x1 : S8x64.ShapeCasts S8x64x1
  broadcasts_S8x1x3136_S8x64x3136 : S8x1x3136.Broadcasts S8x64x3136
  broadcasts_S8x64x1_S8x64x3136 : S8x64x1.Broadcasts S8x64x3136
  reduces_S8x64x3136_S64x3136 : S8x64x3136.Reduces [0] S64x3136
  inb_S1x64x3136_S1x8x3136_0_8_0 : ∀ a, (![0, 8, 0] : Fin 3 → Nat) a + S1x8x3136.size a ≤ S1x64x3136.size a
  inb_S64x64_S8x64_8_0 : ∀ a, (![8, 0] : Fin 2 → Nat) a + S8x64.size a ≤ S64x64.size a
  inb_S1x64x3136_S1x8x3136_0_16_0 : ∀ a, (![0, 16, 0] : Fin 3 → Nat) a + S1x8x3136.size a ≤ S1x64x3136.size a
  inb_S64x64_S8x64_16_0 : ∀ a, (![16, 0] : Fin 2 → Nat) a + S8x64.size a ≤ S64x64.size a
  inb_S1x64x3136_S1x8x3136_0_24_0 : ∀ a, (![0, 24, 0] : Fin 3 → Nat) a + S1x8x3136.size a ≤ S1x64x3136.size a
  inb_S64x64_S8x64_24_0 : ∀ a, (![24, 0] : Fin 2 → Nat) a + S8x64.size a ≤ S64x64.size a
  inb_S1x64x3136_S1x8x3136_0_32_0 : ∀ a, (![0, 32, 0] : Fin 3 → Nat) a + S1x8x3136.size a ≤ S1x64x3136.size a
  inb_S64x64_S8x64_32_0 : ∀ a, (![32, 0] : Fin 2 → Nat) a + S8x64.size a ≤ S64x64.size a
  inb_S1x64x3136_S1x8x3136_0_40_0 : ∀ a, (![0, 40, 0] : Fin 3 → Nat) a + S1x8x3136.size a ≤ S1x64x3136.size a
  inb_S64x64_S8x64_40_0 : ∀ a, (![40, 0] : Fin 2 → Nat) a + S8x64.size a ≤ S64x64.size a
  inb_S1x64x3136_S1x8x3136_0_48_0 : ∀ a, (![0, 48, 0] : Fin 3 → Nat) a + S1x8x3136.size a ≤ S1x64x3136.size a
  inb_S64x64_S8x64_48_0 : ∀ a, (![48, 0] : Fin 2 → Nat) a + S8x64.size a ≤ S64x64.size a
  inb_S1x64x3136_S1x8x3136_0_56_0 : ∀ a, (![0, 56, 0] : Fin 3 → Nat) a + S1x8x3136.size a ≤ S1x64x3136.size a
  inb_S64x64_S8x64_56_0 : ∀ a, (![56, 0] : Fin 2 → Nat) a + S8x64.size a ≤ S64x64.size a
  inb_S1x64x3136_S1x64x3136_0_0_0 : ∀ a, (![0, 0, 0] : Fin 3 → Nat) a + S1x64x3136.size a ≤ S1x64x3136.size a
  h_S1x64x3136 : 0 < S1x64x3136.numel
  shapeCasts_S1x64x3136_S64x3136 : S1x64x3136.ShapeCasts S64x3136
  shapeCasts_S64x3136_S1x64x3136 : S64x3136.ShapeCasts S1x64x3136
  shapeCasts_S8x64x3136_S8x64x56x56 : S8x64x3136.ShapeCasts S8x64x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x3136.size a ≤ S8x64x3136.size a
  hwx0_0 : ∀ i : grid0.Coords, EltTy.bits .f32 = 32 ∨ (Rect.block (s := S8x64x3136) S1x64x3136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x3136.size a ≤ S8x64x3136.size a
  hwx0_2 : ∀ i : grid0.Coords, EltTy.bits .f32 = 32 ∨ (Rect.block (s := S8x64x3136) S1x64x3136.size (cc0_transform_2 i) (hinb0_2 i)).WholeWords (EltTy.packing .f32)

variable [Facts₀]

abbrev win0_0 : Pipeline.Window sig grid0 :=
  Pipeline.Window.ofSpec (Memref.whole main_v0) S1x64x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x64x3136.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x64x56x56 : Shape := ⟨4, ![8, 64, 56, 56]⟩
abbrev S64x64x1x1 : Shape := ⟨4, ![64, 64, 1, 1]⟩
abbrev S64x64 : Shape := ⟨2, ![64, 64]⟩
abbrev S8x1x64x56x56 : Shape := ⟨5, ![8, 1, 64, 56, 56]⟩
abbrev S1x64x64x1x1 : Shape := ⟨5, ![1, 64, 64, 1, 1]⟩
abbrev S8x64x64x56x56 : Shape := ⟨5, ![8, 64, 64, 56, 56]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8x64x56x56, .f32⟩
  | .hbm, ⟨1, _⟩ => ⟨S64x64x1x1, .f32⟩
  | .hbm, ⟨2, _⟩ => ⟨S64x64, .f32⟩
  | .hbm, ⟨3, _⟩ => ⟨S8x1x64x56x56, .f32⟩
  | .hbm, ⟨4, _⟩ => ⟨S1x64x64x1x1, .f32⟩
  | .hbm, ⟨5, _⟩ => ⟨S8x64x64x56x56, .f32⟩
  | .hbm, ⟨6, _⟩ => ⟨S8x64x64x56x56, .f32⟩
  | .hbm, ⟨7, _⟩ => ⟨S8x64x64x56x56, .f32⟩
  | .hbm, ⟨8, _⟩ => ⟨S8x64x64x56x56, .f32⟩
  | .hbm, ⟨9, _⟩ => ⟨S_, .f32⟩
  | .hbm, ⟨10, _⟩ => ⟨S8x64x56x56, .f32⟩
  | _, _ => ⟨S8x64x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  shapeCasts_S64x64x1x1_S64x64 : S64x64x1x1.ShapeCasts S64x64
  bcast_S8x64x56x56_S8x1x64x56x56_0_2_3_4 : S8x64x56x56.BroadcastsInDim S8x1x64x56x56 (![0, 2, 3, 4] : Fin 4 → Fin S8x1x64x56x56.rank)
  bcast_S64x64_S1x64x64x1x1_1_2 : S64x64.BroadcastsInDim S1x64x64x1x1 (![1, 2] : Fin 2 → Fin S1x64x64x1x1.rank)
  bcast_S8x1x64x56x56_S8x64x64x56x56_0_1_2_3_4 : S8x1x64x56x56.BroadcastsInDim S8x64x64x56x56 (![0, 1, 2, 3, 4] : Fin 5 → Fin S8x64x64x56x56.rank)
  bcast_S1x64x64x1x1_S8x64x64x56x56_0_1_2_3_4 : S1x64x64x1x1.BroadcastsInDim S8x64x64x56x56 (![0, 1, 2, 3, 4] : Fin 5 → Fin S8x64x64x56x56.rank)
  reducesTo_S8x64x64x56x56_S8x64x56x56_d2 : S8x64x64x56x56.ReducesTo [2] S8x64x56x56
  h_S_ : 0 < S_.numel

variable [Facts₀]

class Facts : Prop extends Facts₀ where

variable [Facts]
-- ==== Proof.LibMaxReduce.lean ====
import Idealize.ShloMosaic.PureOps.Ideal.Laws

/-!
# A maximum over one axis as a supremum

A fold of `max` over a finite set, started from `b`, is the larger of `b` and the supremum of the set; so a
`maximumf` reduction over one axis of a vector of extended reals, read at an index, is the larger of the
accumulator's value and the supremum over that axis's coordinates, and the supremum alone when the accumulator is `-∞`.
-/

noncomputable section

namespace Cert.Lib

open Idealize.ShloMosaic

/-- A fold of `max` from `b` over a finite set is `max b` of the supremum of the set. -/
theorem fold_max_eq_max_sup {ι : Type*} (s : Finset ι) (b : EReal) (f : ι → EReal) :
    s.fold max b f = max b (s.sup f) := by
  classical
  induction s using Finset.induction_on with
  | empty => simp
  | insert a s ha ih =>
    rw [Finset.fold_insert ha, Finset.sup_insert, ih, max_left_comm]

/-- A `maximumf` reduction over ONE axis of a vector of extended reals, read at an index `j` of the result: the larger
    of the accumulator's value and the supremum, over the reduced axis's coordinates `k`, of the source at `j` with
    `k` inserted (`Shape.Reduces.lift`). -/
theorem multiReduction_maximumf_single_sup {s t : Shape} {a : Fin s.rank} {φ : FTy} (src : FVec Ideal s φ)
    (acc : BitVec φ.bits) (h : s.Reduces [a] t) (hφ : FKind.Formats φ) (hacc : acc = FKind.maximumf.neutral φ hφ)
    (j : t.Idx) :
    multiReduction .maximumf [a] t src acc h hφ hacc j
      = max (Ideal.ofBits φ acc) (Finset.univ.sup fun k : Fin (s.size a) => src (h.lift j k)) :=
  (Ideal.multiReduction_maximumf_single src acc h hφ hacc j).trans (fold_max_eq_max_sup _ _ _)

/-- The same when the accumulator's value is `-∞` (`hb`): the supremum alone. -/
theorem multiReduction_maximumf_single_sup_of_bot {s t : Shape} {a : Fin s.rank} {φ : FTy} (src : FVec Ideal s φ)
    (acc : BitVec φ.bits) (h : s.Reduces [a] t) (hφ : FKind.Formats φ) (hacc : acc = FKind.maximumf.neutral φ hφ)
    (hb : Ideal.ofBits φ acc = ⊥) (j : t.Idx) :
    multiReduction .maximumf [a] t src acc h hφ hacc j
      = Finset.univ.sup fun k : Fin (s.size a) => src (h.lift j k) := by
  rw [multiReduction_maximumf_single_sup, hb]
  exact max_eq_right bot_le

end Cert.Lib

end
-- ==== Proof.LibHostMaxReduce.lean ====
import proofs.«141475_j53429393162852_2_alg».proof.Proof.LibMaxReduce

/-!
# The host's maximum over one axis as a supremum

A one-operand host reduction whose body is the floating-point maximum, over ONE axis of an array of extended reals,
read at an index of the result, is the larger of the initial value and the supremum over that axis's coordinates of
the operand at the index with the coordinate inserted; from the initial value `-∞` it is the supremum alone.
Also: the single-precision word `0xFF800000` is `-∞`, the bottom of the extended reals.
-/

noncomputable section

namespace Cert.Lib

open Idealize.ShloMosaic

/-- The single-precision pattern of `-∞` is the bottom element of the extended reals. -/
theorem ofBits_f32_neg_inf : Ideal.ofBits .f32 0xFF800000#32 = (⊥ : EReal) := by
  simp [Ideal.ofBits, Ideal.ieee]

/-- A host reduction with a maximum body over ONE axis, read at an index `j` of the result: the larger of the initial
    value and the supremum, over the reduced axis's coordinates `k`, of the operand at `j` with `k` inserted. -/
theorem hostReduce_maximumf_single_sup {s t u : Shape} {a : Fin s.rank} {φ : FTy} (x : FVec Ideal s φ)
    (init : FVec Ideal u φ) (h' : s.ReducesTo [a] t) (h : s.Reduces [a] t) (hu : 0 < u.numel) (j : t.Idx) :
    Host.reduce FloatOps.maximumf x init h' hu j
      = max (init (Shape.Idx.first hu)) (Finset.univ.sup fun k : Fin (s.size a) => x (h.lift j k)) :=
  (Host.reduce_eq_fold_single FloatOps.maximumf x init h' h hu j).trans (fold_max_eq_max_sup _ _ _)

/-- The same when the initial value is `-∞` (`hb`): the supremum alone. -/
theorem hostReduce_maximumf_single_sup_of_bot {s t u : Shape} {a : Fin s.rank} {φ : FTy} (x : FVec Ideal s φ)
    (init : FVec Ideal u φ) (h' : s.ReducesTo [a] t) (h : s.Reduces [a] t) (hu : 0 < u.numel)
    (hb : init (Shape.Idx.first hu) = (⊥ : EReal)) (j : t.Idx) :
    Host.reduce FloatOps.maximumf x init h' hu j
      = Finset.univ.sup fun k : Fin (s.size a) => x (h.lift j k) := by
  rw [hostReduce_maximumf_single_sup x init h' h hu j, hb]
  exact max_eq_right bot_le

end Cert.Lib

end
-- ==== Proof.LibOuterBroadcast.lean ====
import Idealize.ShloMosaic.Lib.Pipeline.Value
import Idealize.ShloMosaic.Lib.ValueIdx

/-!
# The two operands of an outer sum `x[:, None, :] + w[:, :, None]`

An `[a, c]` array given a unit middle axis, `[a, 1, c]`, and broadcast to `[a, b, c]`, read at `(i, j, k)`, is the
array at `(i, k)`; an `[a, b]` array given a unit last axis, `[a, b, 1]`, and broadcast to `[a, b, c]`, read at
`(i, j, k)`, is the array at `(i, j)`. General in the three sizes and in the element type.
-/

namespace Cert.Lib

open Idealize.ShloMosaic Idealize.ShloMosaic.ValueIdx

variable {α : Type}

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    rw [Shape.rowMajor_val_two, Shape.rowMajor_val_three]
    show i.val * c + k.val = (i.val * 1 + u.val) * c + k.val
    have hu : u.val = 0 := by have := u.isLt; omega
    rw [Nat.mul_one, hu, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    rw [Shape.rowMajor_val_two, Shape.rowMajor_val_three]
    show i.val * b + j.val = (i.val * b + j.val) * 1 + u.val
    have hu : u.val = 0 := by have := u.isLt; omega
    rw [Nat.mul_one, hu, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The first operand of the outer sum: `x` of shape `[a, c]` as `x[:, None, :]` over `[a, b, c]`, at `(i, j, k)`. -/
theorem outer_first_apply {a b c : ℕ} (x : (⟨2, ![a, c]⟩ : Shape).Idx → α)
    (h : (⟨2, ![a, c]⟩ : Shape).ShapeCasts ⟨3, ![a, 1, c]⟩) (hb : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ x h) hb (ix3 i j k) = x (ix2 i k) :=
  (broadcastTo_a1c_abc_apply _ hb i j k).trans (shapeCast_ac_a1c_apply x h i 0 k)

/-- The second operand: `w` of shape `[a, b]` as `w[:, :, None]` over `[a, b, c]`, at `(i, j, k)`. -/
theorem outer_second_apply {a b c : ℕ} (w : (⟨2, ![a, b]⟩ : Shape).Idx → α)
    (h : (⟨2, ![a, b]⟩ : Shape).ShapeCasts ⟨3, ![a, b, 1]⟩) (hb : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ w h) hb (ix3 i j k) = w (ix2 i j) :=
  (broadcastTo_ab1_abc_apply _ hb i j k).trans (shapeCast_ab_ab1_apply w h i j 0)

end Cert.Lib
-- ==== Proof.Spec.lean ====
import Idealize.ShloMosaic.PureOps.Ideal
import Idealize.ShloMosaic.Lib.ValueIdx

/-!
# The specification: a largest absolute sum over the input channels

For an input `x` of shape [8, 64, 56, 56] (batch, input channel, row, column) and weights `w` of shape
[64, 64, 1, 1] (output channel, input channel), the result at (b, o, h, v) is the largest, over the 64 input
channels `c`, of `|x(b, c, h, v) + w(o, c, 0, 0)|`, on the extended reals.

A maximum is associative, commutative and idempotent and `-∞` is its unit, so the largest of 64 numbers may be taken
eight at a time: the running maximum, started at `-∞`, of the maxima of eight consecutive runs of eight is the maximum
of all 64. No finiteness is needed anywhere.
-/

noncomputable section

namespace Cert.DInf

open Idealize.ShloMosaic Idealize.ShloMosaic.ValueIdx

/-- `|u + v|` on the extended reals, as the larger of the sum and its negation. -/
def gap (u v : EReal) : EReal := max (u + v) (-(u + v))

/-- The result at batch `b`, output channel `o`, row `h`, column `v`. -/
def dinfAt (x : (⟨4, ![8, 64, 56, 56]⟩ : Shape).Idx → EReal) (w : (⟨4, ![64, 64, 1, 1]⟩ : Shape).Idx → EReal)
    (b : Fin 8) (o : Fin 64) (h : Fin 56) (v : Fin 56) : EReal :=
  Finset.univ.sup fun c : Fin 64 => gap (x (ix4 b c h v)) (w (ix4 o c (0 : Fin 1) (0 : Fin 1)))

/-- The whole result array. -/
def dinf (x : (⟨4, ![8, 64, 56, 56]⟩ : Shape).Idx → EReal) (w : (⟨4, ![64, 64, 1, 1]⟩ : Shape).Idx → EReal) :
    (⟨4, ![8, 64, 56, 56]⟩ : Shape).Idx → EReal :=
  fun i => dinfAt x w (i 0) (i 1) (i 2) (i 3)

theorem dinf_ix4 (x : (⟨4, ![8, 64, 56, 56]⟩ : Shape).Idx → EReal) (w : (⟨4, ![64, 64, 1, 1]⟩ : Shape).Idx → EReal)
    (b : Fin 8) (o : Fin 64) (h : Fin 56) (v : Fin 56) : dinf x w (ix4 b o h v) = dinfAt x w b o h v := rfl

/-- Channel `8 k + j`: the `j`-th channel of the `k`-th run of eight. -/
def at8 (k j : Fin 8) : Fin 64 := ⟨8 * k.val + j.val, by have := k.isLt; have := j.isLt; omega⟩

theorem at8_val (k j : Fin 8) : (at8 k j).val = 8 * k.val + j.val := rfl

/-- A running maximum from `-∞` through eight numbers is their supremum. -/
theorem running_max_eight (S : Fin 8 → EReal) :
    max (max (max (max (max (max (max (max ⊥ (S 0)) (S 1)) (S 2)) (S 3)) (S 4)) (S 5)) (S 6)) (S 7)
      = Finset.univ.sup S := by
  apply le_antisymm
  · refine max_le (max_le (max_le (max_le (max_le (max_le (max_le (max_le bot_le ?_) ?_) ?_) ?_) ?_) ?_) ?_) ?_ <;>
      exact Finset.le_sup (f := S) (Finset.mem_univ _)
  · refine Finset.sup_le fun k _ => ?_
    exact match k with
      | ⟨0, _⟩ => le_max_of_le_left (le_max_of_le_left (le_max_of_le_left (le_max_of_le_left (le_max_of_le_left
          (le_max_of_le_left (le_max_of_le_left (le_max_right _ _)))))))
      | ⟨1, _⟩ => le_max_of_le_left (le_max_of_le_left (le_max_of_le_left (le_max_of_le_left (le_max_of_le_left
          (le_max_of_le_left (le_max_right _ _))))))
      | ⟨2, _⟩ => le_max_of_le_left (le_max_of_le_left (le_max_of_le_left (le_max_of_le_left (le_max_of_le_left
          (le_max_right _ _)))))
      | ⟨3, _⟩ => le_max_of_le_left (le_max_of_le_left (le_max_of_le_left (le_max_of_le_left (le_max_right _ _))))
      | ⟨4, _⟩ => le_max_of_le_left (le_max_of_le_left (le_max_of_le_left (le_max_right _ _)))
      | ⟨5, _⟩ => le_max_of_le_left (le_max_of_le_left (le_max_right _ _))
      | ⟨6, _⟩ => le_max_of_le_left (le_max_right _ _)
      | ⟨7, _⟩ => le_max_right _ _

/-- The supremum over 64 channels is the supremum, over the eight runs, of each run's supremum. -/
theorem sup_runs (f : Fin 64 → EReal) :
    (Finset.univ.sup fun k : Fin 8 => Finset.univ.sup fun j : Fin 8 => f (at8 k j)) = Finset.univ.sup f := by
  apply le_antisymm
  · exact Finset.sup_le fun k _ => Finset.sup_le fun j _ => Finset.le_sup (f := f) (Finset.mem_univ _)
  · refine Finset.sup_le fun c _ => ?_
    have hc := c.isLt
    have e : c = at8 ⟨c.val / 8, by omega⟩ ⟨c.val % 8, by omega⟩ := Fin.ext (by rw [at8_val]; show c.val = 8 * (c.val / 8) + c.val % 8; omega)
    rw [e]
    exact le_trans (Finset.le_sup (f := fun j : Fin 8 => f (at8 ⟨c.val / 8, by omega⟩ j)) (Finset.mem_univ _))
      (Finset.le_sup (f := fun k : Fin 8 => Finset.univ.sup fun j : Fin 8 => f (at8 k j)) (Finset.mem_univ _))

/-- The running maximum from `b = -∞` through the eight runs' maxima `c0 … c7` is the maximum over all 64 channels. -/
theorem running_max_runs (f : Fin 64 → EReal) (b c0 c1 c2 c3 c4 c5 c6 c7 : EReal) (hb : b = ⊥)
    (h0 : c0 = Finset.univ.sup fun j : Fin 8 => f (at8 0 j)) (h1 : c1 = Finset.univ.sup fun j : Fin 8 => f (at8 1 j))
    (h2 : c2 = Finset.univ.sup fun j : Fin 8 => f (at8 2 j)) (h3 : c3 = Finset.univ.sup fun j : Fin 8 => f (at8 3 j))
    (h4 : c4 = Finset.univ.sup fun j : Fin 8 => f (at8 4 j)) (h5 : c5 = Finset.univ.sup fun j : Fin 8 => f (at8 5 j))
    (h6 : c6 = Finset.univ.sup fun j : Fin 8 => f (at8 6 j)) (h7 : c7 = Finset.univ.sup fun j : Fin 8 => f (at8 7 j)) :
    max (max (max (max (max (max (max (max b c0) c1) c2) c3) c4) c5) c6) c7 = Finset.univ.sup f := by
  subst hb h0 h1 h2 h3 h4 h5 h6 h7
  exact (running_max_eight fun k : Fin 8 => Finset.univ.sup fun j : Fin 8 => f (at8 k j)).trans (sup_runs f)

end Cert.DInf

end
-- ==== Proof.Chunk.lean ====
import proofs.«141475_j53429393162852_2_alg».proof.Proof.Gen.KernelIdeal.Skeleton
import proofs.«141475_j53429393162852_2_alg».proof.Proof.LibHostMaxReduce
import proofs.«141475_j53429393162852_2_alg».proof.Proof.LibOuterBroadcast
import proofs.«141475_j53429393162852_2_alg».proof.Proof.Spec
import Idealize.ShloMosaic.Lib.ValueLayout
import Idealize.ShloMosaic.Lib.Pipeline.FrameBody

/-!
# One run of eight input channels

The kernel body walks the 64 input channels in eight runs of eight. For one run it loads eight rows `X` of the
input block (`[1, 8, 3136]`: channel within the run, flattened pixel) and the matching eight rows `W` of the
transposed weights (`[8, 64]`: channel within the run, output channel), forms the outer sum
`X[:, None, :] + W[:, :, None]` over `[8, 64, 3136]`, takes absolute values, and takes the maximum over the run's
eight channels, starting from `-∞`. At output channel `o` and pixel `l` that is the largest of
`|X(0, j, l) + W(j, o)|` over the eight channels `j` of the run.

The body's stored value is the running maximum, from `-∞`, of the eight runs' results, given a leading unit axis.
-/

noncomputable section

namespace Cert.KernelIdeal.Body

open Cert.KernelIdeal Cert.KernelIdeal.Gen Idealize.ShloMosaic Idealize.ShloMosaic.ValueIdx Cert.DInf Cert.Lib

section AnyFloat

variable {F : FTy → Type} [FloatOps F]

/-- One run: the maximum over the run's eight channels of the absolute outer sum of its rows of the input and of
    the weights. -/
def chunk (X : Vec F S1x8x3136 .f32) (W : Vec F S8x64 .f32) : FVec F S64x3136 .f32 :=
  multiReduction .maximumf [0] S64x3136
    (absf (addf
      (broadcastTo S8x64x3136 (shapeCast S8x1x3136 (shapeCast S8x3136 X shapeCasts_S1x8x3136_S8x3136) shapeCasts_S8x3136_S8x1x3136) broadcasts_S8x1x3136_S8x64x3136)
      (broadcastTo S8x64x3136 (shapeCast S8x64x1 (shapeCast S8x64 W shapeCasts_S8x64_S8x64) shapeCasts_S8x64_S8x64x1) broadcasts_S8x64x1_S8x64x3136)))
    0xFF800000#32 reduces_S8x64x3136_S64x3136 (.inl rfl) rfl

/-- The value the body stores, from its sixteen loads: the running maximum from `-∞` of the eight runs, with a
    leading unit axis added. -/
theorem payload_eq (a0 a1 a2 a3 a4 a5 a6 a7 : Vec F S1x8x3136 .f32) (b0 b1 b2 b3 b4 b5 b6 b7 : Vec F S8x64 .f32) :
    k0_pay1 (k0_pay3 (k0_pay2 a0 b0 a1 b1 a2 b2) a3 b3 a4 b4 a5 b5) (k0_pay4 a6) (k0_pay5 b6) a7 b7
      = shapeCast S1x64x3136
          (maximumf (maximumf (maximumf (maximumf (maximumf (maximumf (maximumf (maximumf
            (broadcast S64x3136 (Scalar.ofBits .f32 0xFF800000#32))
            (chunk a0 b0)) (chunk a1 b1)) (chunk a2 b2)) (chunk a3 b3)) (chunk a4 b4)) (chunk a5 b5)) (chunk a6 b6)) (chunk a7 b7))
          shapeCasts_S64x3136_S1x64x3136 := rfl

end AnyFloat

/-! ## A run at an output channel and a pixel, on the extended reals -/

/-- The reduced index `(o, l)` with the run's channel `j` put back in front is `(j, o, l)`. -/
theorem lift_run (o : Fin 64) (l : Fin 3136) (j : Fin 8) :
    reduces_S8x64x3136_S64x3136.lift (ix2 o l) j = ix3 j o l := by
  funext c; apply Fin.ext
  match c with
  | ⟨0, _⟩ => rfl
  | ⟨1, _⟩ => rfl
  | ⟨2, _⟩ => rfl

/-- One run at output channel `o` and pixel `l`: the largest `|X(0, j, l) + W(j, o)|` over its eight channels. -/
theorem chunk_apply (X : Vec Ideal S1x8x3136 .f32) (W : Vec Ideal S8x64 .f32) (o : Fin 64) (l : Fin 3136) :
    chunk (F := Ideal) X W (ix2 o l)
      = Finset.univ.sup fun j : Fin 8 => gap (X (ix3 (0 : Fin 1) j l)) (W (ix2 j o)) := by
  unfold chunk
  refine (multiReduction_maximumf_single_sup_of_bot _ _ reduces_S8x64x3136_S64x3136 _ _ ofBits_f32_neg_inf (ix2 o l)).trans ?_
  show (Finset.univ.sup fun j : Fin 8 => _) = _
  refine Finset.sup_congr rfl fun j _ => ?_
  rw [lift_run o l j]
  show gap _ _ = gap _ _
  refine congrArg₂ gap ?_ ?_
  · exact (outer_first_apply _ _ _ j o l).trans (shapeCast_1ab_ab_apply X _ j l)
  · exact (outer_second_apply _ _ _ j o l).trans (congrFun (shapeCast_self W _) _)

/-! ## The loads: eight consecutive rows of a block -/

/-- Rows `8 k … 8 k + 7` of the input block, read at row `j` of the eight and pixel `l`: the block's row `8 k + j`. -/
theorem ld_input_rows (x0 : Vec Ideal S1x64x3136 .f32) (k : Fin 8) (off : Fin 3 → ℕ)
    (inb : ∀ a, off a + S1x8x3136.size a ≤ S1x64x3136.size a) (hoff : off = ![0, 8 * k.val, 0]) (j : Fin 8) (l : Fin 3136) :
    View.ld x0 (Rect.unit (s := S1x64x3136) off S1x8x3136.size inb) (ix3 (0 : Fin 1) j l)
      = x0 (ix3 (0 : Fin 1) (at8 k j) l) := by
  subst hoff
  show x0 _ = x0 _
  refine congrArg x0 (funext fun a => Fin.ext ?_)
  match a with
  | ⟨0, _⟩ => show 0 + 1 * (0 : Fin 1).val = (0 : Fin 1).val; omega
  | ⟨1, _⟩ => show 8 * k.val + 1 * j.val = 8 * k.val + j.val; omega
  | ⟨2, _⟩ => show 0 + 1 * l.val = l.val; omega

/-- Rows `8 k … 8 k + 7` of the transposed weights, read at row `j` of the eight and output channel `o`. -/
theorem ld_weight_rows (x1 : Vec Ideal S64x64 .f32) (k : Fin 8) (off : Fin 2 → ℕ)
    (inb : ∀ a, off a + S8x64.size a ≤ S64x64.size a) (hoff : off = ![8 * k.val, 0]) (j : Fin 8) (o : Fin 64) :
    View.ld x1 (Rect.unit (s := S64x64) off S8x64.size inb) (ix2 j o) = x1 (ix2 (at8 k j) o) := by
  subst hoff
  show x1 _ = x1 _
  refine congrArg x1 (funext fun a => Fin.ext ?_)
  match a with
  | ⟨0, _⟩ => show 8 * k.val + 1 * j.val = 8 * k.val + j.val; omega
  | ⟨1, _⟩ => show 0 + 1 * o.val = o.val; omega

/-- Run `k` of the loaded blocks at output channel `o` and pixel `l`: the largest `|x0(0, c, l) + x1(c, o)|` over
    the channels `c = 8 k + j` of the run. -/
theorem chunk_ld_apply (x0 : Vec Ideal S1x64x3136 .f32) (x1 : Vec Ideal S64x64 .f32) (k : Fin 8)
    (offx : Fin 3 → ℕ) (inbx : ∀ a, offx a + S1x8x3136.size a ≤ S1x64x3136.size a)
    (offw : Fin 2 → ℕ) (inbw : ∀ a, offw a + S8x64.size a ≤ S64x64.size a)
    (hx : offx = ![0, 8 * k.val, 0]) (hw : offw = ![8 * k.val, 0]) (o : Fin 64) (l : Fin 3136) :
    chunk (F := Ideal) (View.ld x0 (Rect.unit (s := S1x64x3136) offx S1x8x3136.size inbx))
        (View.ld x1 (Rect.unit (s := S64x64) offw S8x64.size inbw)) (ix2 o l)
      = Finset.univ.sup fun j : Fin 8 => gap (x0 (ix3 (0 : Fin 1) (at8 k j) l)) (x1 (ix2 (at8 k j) o)) := by
  rw [chunk_apply]
  refine Finset.sup_congr rfl fun j _ => ?_
  rw [ld_input_rows x0 k offx inbx hx j l, ld_weight_rows x1 k offw inbw hw j o]

-- From here on a run is known by two facts only: its place in the stored value (`payload_eq`) and its value at an
-- output channel and a pixel (`chunk_apply`, `chunk_ld_apply`).
attribute [irreducible] chunk

end Cert.KernelIdeal.Body

end
-- ==== Proof.Block.lean ====
import proofs.«141475_j53429393162852_2_alg».proof.Proof.Gen.KernelIdeal.Frame
import proofs.«141475_j53429393162852_2_alg».proof.Proof.Chunk

/-!
# What one grid point leaves in the output block

At a grid point the body holds one batch's input block `x0` (`[1, 64, 3136]`: input channel, pixel) and the
transposed weights `x1` (`[64, 64]`: input channel, output channel), and overwrites the whole output block
(`[1, 64, 3136]`: output channel, pixel) with the running maximum of the eight runs of eight channels. Run `k` reads
rows `8 k … 8 k + 7` of both, so at output channel `o` and pixel `l` the block holds the largest
`|x0(0, c, l) + x1(c, o)|` over all 64 input channels `c`.
-/

noncomputable section

namespace Cert.KernelIdeal.Body

open Cert.KernelIdeal Cert.KernelIdeal.Gen Idealize.ShloMosaic Idealize.ShloMosaic.ValueIdx Cert.DInf Cert.Lib

theorem zero_offsets3 : (![0, 0, 0] : Fin 3 → Nat) = fun _ => 0 := funext fun a => by fin_cases a <;> rfl

/-- The block's value at output channel `o` and pixel `l`, from the input block and the transposed weights. -/
def pointAt (x0 : S1x64x3136.Idx → EReal) (x1 : S64x64.Idx → EReal) (o : Fin 64) (l : Fin 3136) : EReal :=
  Finset.univ.sup fun c : Fin 64 => gap (x0 (ix3 (0 : Fin 1) c l)) (x1 (ix2 c o))

/-- Run `k`'s maximum at output channel `o` and pixel `l`: over the channels `8 k + j`. -/
def runSup (x0 : S1x64x3136.Idx → EReal) (x1 : S64x64.Idx → EReal) (o : Fin 64) (l : Fin 3136) (k : Fin 8) : EReal :=
  Finset.univ.sup fun j : Fin 8 => gap (x0 (ix3 (0 : Fin 1) (at8 k j) l)) (x1 (ix2 (at8 k j) o))

section Runs

variable (x0 : Vec Ideal S1x64x3136 .f32) (x1 : Vec Ideal S64x64 .f32) (o : Fin 64) (l : Fin 3136)

/-! The eight runs of the body, each over its own eight rows of the two staged blocks. -/

theorem run0 : chunk (F := Ideal) (View.ld x0 r0_0) (View.ld x1 r0_1) (ix2 o l) = runSup x0 x1 o l 0 :=
  chunk_ld_apply x0 x1 0 _ _ _ _ rfl rfl o l
theorem run1 : chunk (F := Ideal) (View.ld x0 r0_2) (View.ld x1 r0_3) (ix2 o l) = runSup x0 x1 o l 1 :=
  chunk_ld_apply x0 x1 1 _ _ _ _ rfl rfl o l
theorem run2 : chunk (F := Ideal) (View.ld x0 r0_4) (View.ld x1 r0_5) (ix2 o l) = runSup x0 x1 o l 2 :=
  chunk_ld_apply x0 x1 2 _ _ _ _ rfl rfl o l
theorem run3 : chunk (F := Ideal) (View.ld x0 r0_6) (View.ld x1 r0_7) (ix2 o l) = runSup x0 x1 o l 3 :=
  chunk_ld_apply x0 x1 3 _ _ _ _ rfl rfl o l
theorem run4 : chunk (F := Ideal) (View.ld x0 r0_8) (View.ld x1 r0_9) (ix2 o l) = runSup x0 x1 o l 4 :=
  chunk_ld_apply x0 x1 4 _ _ _ _ rfl rfl o l
theorem run5 : chunk (F := Ideal) (View.ld x0 r0_10) (View.ld x1 r0_11) (ix2 o l) = runSup x0 x1 o l 5 :=
  chunk_ld_apply x0 x1 5 _ _ _ _ rfl rfl o l
theorem run6 : chunk (F := Ideal) (View.ld x0 r0_12) (View.ld x1 r0_13) (ix2 o l) = runSup x0 x1 o l 6 :=
  chunk_ld_apply x0 x1 6 _ _ _ _ rfl rfl o l
theorem run7 : chunk (F := Ideal) (View.ld x0 r0_14) (View.ld x1 r0_15) (ix2 o l) = runSup x0 x1 o l 7 :=
  chunk_ld_apply x0 x1 7 _ _ _ _ rfl rfl o l

end Runs

/-- A running maximum of eight arrays from a constant array, read at an index, is the running maximum of their
    entries there from the constant. -/
theorem nested_apply (b : Ideal .f32) (c0 c1 c2 c3 c4 c5 c6 c7 : FVec Ideal S64x3136 .f32) (o : Fin 64) (l : Fin 3136) :
    (maximumf (maximumf (maximumf (maximumf (maximumf (maximumf (maximumf (maximumf
        (broadcast S64x3136 b) c0) c1) c2) c3) c4) c5) c6) c7) (ix2 o l)
      = max (max (max (max (max (max (max (max b (c0 (ix2 o l))) (c1 (ix2 o l))) (c2 (ix2 o l))) (c3 (ix2 o l)))
          (c4 (ix2 o l))) (c5 (ix2 o l))) (c6 (ix2 o l))) (c7 (ix2 o l)) := rfl

/-- The output block after the body, at `(0, o, l)`. -/
theorem block_apply (x0 : Vec Ideal S1x64x3136 .f32) (x1 : Vec Ideal S64x64 .f32) (o : Fin 64) (l : Fin 3136) :
    out0_2 (F := Ideal) x0 x1 (ix3 (0 : Fin 1) o l) = pointAt x0 x1 o l := by
  unfold out0_2
  rw [View.canon_unit_zero zero_offsets3, payload_eq]
  refine (shapeCast_ab_1ab_apply _ _ (0 : Fin 1) o l).trans ?_
  refine (nested_apply _ (chunk (View.ld x0 r0_0) (View.ld x1 r0_1)) (chunk (View.ld x0 r0_2) (View.ld x1 r0_3))
    (chunk (View.ld x0 r0_4) (View.ld x1 r0_5)) (chunk (View.ld x0 r0_6) (View.ld x1 r0_7))
    (chunk (View.ld x0 r0_8) (View.ld x1 r0_9)) (chunk (View.ld x0 r0_10) (View.ld x1 r0_11))
    (chunk (View.ld x0 r0_12) (View.ld x1 r0_13)) (chunk (View.ld x0 r0_14) (View.ld x1 r0_15)) o l).trans ?_
  exact running_max_runs (fun c : Fin 64 => gap (x0 (ix3 (0 : Fin 1) c l)) (x1 (ix2 c o))) _ _ _ _ _ _ _ _ _
    ofBits_f32_neg_inf (run0 x0 x1 o l) (run1 x0 x1 o l) (run2 x0 x1 o l) (run3 x0 x1 o l)
    (run4 x0 x1 o l) (run5 x0 x1 o l) (run6 x0 x1 o l) (run7 x0 x1 o l)

/-- The whole output block after the body, as one function of its index. -/
theorem block_eq (x0 : Vec Ideal S1x64x3136 .f32) (x1 : Vec Ideal S64x64 .f32) :
    out0_2 (F := Ideal) x0 x1 = fun y : S1x64x3136.Idx => pointAt x0 x1 (y 1) (y 2) := by
  funext y
  obtain ⟨u, o, l, rfl⟩ : ∃ (u : Fin 1) (o : Fin 64) (l : Fin 3136), y = ix3 u o l := ⟨y 0, y 1, y 2, eq_ix3 y⟩
  obtain rfl : u = 0 := Subsingleton.elim _ _
  exact block_apply x0 x1 o l

end Cert.KernelIdeal.Body

end
-- ==== Proof.Region.lean ====
import proofs.«141475_j53429393162852_2_alg».proof.Proof.Gen.KernelIdeal.Frame
import proofs.«141475_j53429393162852_2_alg».proof.Proof.Block
import Idealize.ShloMosaic.Lib.Pipeline.Value
import Idealize.ShloMosaic.Lib.StableHlo.Run
import Idealize.ShloMosaic.Lib.ValueLayout

/-!
# The kernel's result array

The pallas region runs over 8 grid points, one per batch: point `t` stages batch `t` of the flattened input
(`[8, 64, 3136]`: batch, input channel, pixel), the whole transposed weight matrix (`[64, 64]`: input channel,
output channel), and writes batch `t` of the output (`[8, 64, 3136]`: batch, output channel, pixel). So the output
array ends, at (b, o, l), at the largest `|xf(b, c, l) + w2(c, o)|` over the input channels `c`.

Before the region the host flattens the two image axes of the input into one pixel axis (pixel `56 h + v`) and
drops the weights' two unit axes and transposes them; after it the host unflattens the pixel axis again. Reading
those layout operations at an index turns the region's function into the specification.
-/

noncomputable section

namespace Cert.KernelIdeal.Region

open Cert.KernelIdeal Cert.KernelIdeal.Gen Cert.KernelIdeal.Body Idealize.ShloMosaic Idealize.ShloMosaic.TcCoe Idealize.SL.Sem
open Idealize.ShloMosaic.ValueIdx Cert.DInf
open Idealize.ShloMosaic.Pipeline (Dat)

variable (m : (ℓ : Loc nD τ sig) → Buf (Elt Ideal) ℓ) (ρ : Dev nD → PrngReg)

/-! ## The region's function -/

/-- The output array at batch `b`, output channel `o`, pixel `l`, from the flattened input and the transposed weights. -/
def regionAt (xf : S8x64x3136.Idx → EReal) (w2 : S64x64.Idx → EReal) (b : Fin 8) (o : Fin 64) (l : Fin 3136) : EReal :=
  Finset.univ.sup fun c : Fin 64 => gap (xf (ix3 b c l)) (w2 (ix2 c o))

/-- The whole output array. -/
def region (xf : S8x64x3136.Idx → EReal) (w2 : S64x64.Idx → EReal) : S8x64x3136.Idx → EReal :=
  fun i => regionAt xf w2 (i 0) (i 1) (i 2)

/-! ## The index maps, decided over the eight grid points -/

/-- Point `t` stages batch `t` of the input and of the output (the same block index, below 8), at channel block 0 and
    pixel block 0; the weights' one block is the whole matrix. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 2) = 0 ∧ win0_1.index t (1 : Fin 2) = 0
    ∧ win0_2.index t (1 : Fin 3) = 0 ∧ win0_2.index t (2 : Fin 3) = 0 ∧ win0_2.index t (0 : Fin 3) < 8 :=
  (by decide +kernel : ∀ t : Fin grid0.N, _)

/-- Every batch is some point's. -/
theorem idx_onto : ∀ q : Fin 8, ∃ t : Fin cfg0.N, win0_2.index t = ![q.val, 0, 0] :=
  (by decide +kernel : ∀ q : Fin 8, ∃ t : Fin grid0.N, win0_2.index t = ![q.val, 0, 0])

/-- The batch point `t` works on. -/
def batchOf (t : Fin cfg0.N) : Fin 8 := ⟨win0_2.index t (0 : Fin 3), (idx_facts t).2.2.2.2.2.2.2⟩

/-! ## The staged blocks, read where they sit in their arrays -/

/-- The input block at point `t`, at channel `cc` and pixel `l`, is the flattened input at that point's batch. -/
theorem input_block_apply (c : Dev nD) (t : Fin cfg0.N) (cc : Fin 64) (l : Fin 3136) :
    iblk m c 0 t (ix3 (0 : Fin 1) cc l) = V m c main_v0 (ix3 (batchOf t) cc l) := by
  obtain ⟨e0, e1, e2, -⟩ := idx_facts t
  show V m c main_v0 (((cfg0.win 0).blk t).view.emb (ix3 (0 : Fin 1) cc l)) = _
  refine congrArg (V m c main_v0) (funext fun a => Fin.ext ?_)
  match a with
  | ⟨0, _⟩ => show win0_0.index t (0 : Fin 3) * 1 + 1 * 0 = win0_2.index t (0 : Fin 3); omega
  | ⟨1, _⟩ => show win0_0.index t (1 : Fin 3) * 64 + 1 * cc.val = cc.val; omega
  | ⟨2, _⟩ => show win0_0.index t (2 : Fin 3) * 3136 + 1 * l.val = l.val; omega

/-- The weights' block at any point is the whole transposed weight matrix. -/
theorem weight_block_apply (c : Dev nD) (t : Fin cfg0.N) (cc o : Fin 64) :
    iblk m c 1 t (ix2 cc o) = V m c main_v2 (ix2 cc o) := by
  obtain ⟨-, -, -, e3, e4, -⟩ := idx_facts t
  show V m c main_v2 (((cfg0.win 1).blk t).view.emb (ix2 cc o)) = _
  refine congrArg (V m c main_v2) (funext fun a => Fin.ext ?_)
  match a with
  | ⟨0, _⟩ => show win0_1.index t (0 : Fin 2) * 64 + 1 * cc.val = cc.val; omega
  | ⟨1, _⟩ => show win0_1.index t (1 : Fin 2) * 64 + 1 * o.val = o.val; omega

/-! ## What a point writes back, and the array after the region -/

/-- What point `t` writes back is its block of the region's function of the arrays as the region finds them. -/
theorem flushed_eq (c : Dev nD) (t : Fin cfg0.N) :
    (dats m 0 c).flushed 2 t
      = ((cfg0.win 2).blk t).view.read (Elt Ideal) (region (V m c main_v0) (V m c main_v2)) := by
  show (cfg0.win 2).cut (grid0.coords t) ((dats m 0 c).after 2 t) = _
  rw [after0_2, block_eq (iblk m c 0 t) (iblk m c 1 t)]
  obtain ⟨-, -, -, -, -, e5, e6, -⟩ := idx_facts t
  funext y
  show pointAt (iblk m c 0 t) (iblk m c 1 t) (y 1) (y 2)
    = regionAt (V m c main_v0) (V m c main_v2) (((cfg0.win 2).blk t).view.emb y 0)
        (((cfg0.win 2).blk t).view.emb y 1) (((cfg0.win 2).blk t).view.emb y 2)
  unfold pointAt regionAt
  refine Finset.sup_congr rfl fun cc _ => ?_
  refine (congrArg₂ gap (input_block_apply m c t cc (y 2)) (weight_block_apply m c t cc (y 1))).trans ?_
  have h0 : (y 0).val < 1 := (y 0).isLt
  refine congrArg₂ gap (congrArg (V m c main_v0) (funext fun a => Fin.ext ?_)) (congrArg (V m c main_v2) (funext fun a => Fin.ext ?_))
  · match a with
    | ⟨0, _⟩ => show win0_2.index t (0 : Fin 3) = win0_2.index t (0 : Fin 3) * 1 + 1 * (y 0).val; omega
    | ⟨1, _⟩ => rfl
    | ⟨2, _⟩ => show (y 2).val = win0_2.index t (2 : Fin 3) * 3136 + 1 * (y 2).val; omega
  · match a with
    | ⟨0, _⟩ => rfl
    | ⟨1, _⟩ => show (y 1).val = win0_2.index t (1 : Fin 3) * 64 + 1 * (y 1).val; omega

/-- An index of the output array is in point `t`'s block iff each coordinate is in the block's range on its axis. -/
theorem mem_blk (t : Fin cfg0.N) (i : S8x64x3136.Idx) :
    i ∈ ((cfg0.win 2).blk t).view.set ↔ ∀ a : Fin 3, win0_2.index t a * S1x64x3136.size a ≤ (i a).val
      ∧ (i a).val < win0_2.index t a * S1x64x3136.size a + S1x64x3136.size a := by
  show i ∈ ((View.whole main_v3).slice (win0_2.rect t)).set ↔ _
  rw [View.set_slice_whole, Rect.mem_set_unit]
  exact Iff.rfl

/-- Every index of the output array is in the block of the point of its batch. -/
theorem cover (i : S8x64x3136.Idx) :
    ∃ t : Fin cfg0.N, (cfg0.win 2).flush t = true ∧ i ∈ ((cfg0.win 2).blk t).view.set := by
  have hi0 : (i 0).val < 8 := (i 0).isLt
  have hi1 : (i 1).val < 64 := (i 1).isLt
  have hi2 : (i 2).val < 3136 := (i 2).isLt
  obtain ⟨t, ht⟩ := idx_onto ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 64 ≤ (i 1).val ∧ (i 1).val < win0_2.index t (1 : Fin 3) * 64 + 64; omega
  | ⟨2, _⟩ => show win0_2.index t (2 : Fin 3) * 3136 ≤ (i 2).val ∧ (i 2).val < win0_2.index t (2 : Fin 3) * 3136 + 3136; omega

/-- The output array after the region is the region's function of the arrays as the region finds them. -/
theorem final (c : Dev nD) : (dats m 0 c).arrAt 2 cfg0.N = region (V m c main_v0) (V m c main_v2) :=
  (dats m 0 c).arrAt_eq_of_cover 2 (region (V m c main_v0) (V m c main_v2)) (fun t _ => flushed_eq m c t) cover

/-! ## The host operations before the region -/

/-- The flattened input is the input with its two image axes cast into one. -/
theorem entry_input (c : Dev nD) :
    (V m c main_v0 : S8x64x3136.Idx → EReal)
      = shapeCast S8x64x3136 (m ((c : Thread nD τ).loc main_arg0)) shapeCasts_S8x64x56x56_S8x64x3136 := by
  show StableHlo.after hostOps0 (fun b => m (c, b)) (Proc.devRef .tc main_v0) = _
  after_results
  rfl

/-- The staged weights are the weights with their unit axes dropped, transposed. -/
theorem entry_weights (c : Dev nD) :
    (V m c main_v2 : S64x64.Idx → EReal)
      = transpose S64x64 [1, 0] (shapeCast S64x64 (m ((c : Thread nD τ).loc main_arg1)) shapeCasts_S64x64x1x1_S64x64)
          transposes_S64x64_S64x64_1_0 := by
  show StableHlo.after hostOps0 (fun b => m (c, b)) (Proc.devRef .tc main_v2) = _
  after_results
  rfl

/-- Pixel `56 h + v` of the flattened image. -/
def pix (h v : Fin 56) : Fin 3136 := ⟨56 * h.val + v.val, by have := h.isLt; have := v.isLt; omega⟩

/-- The flattened input at pixel `56 h + v` is the input at row `h`, column `v`. -/
theorem entry_input_apply (c : Dev nD) (b : Fin 8) (cc : Fin 64) (h v : Fin 56) :
    V m c main_v0 (ix3 b cc (pix h v)) = m ((c : Thread nD τ).loc main_arg0) (ix4 b cc h v) := by
  rw [entry_input]
  exact shapeCast_apply _ _ _ _ (by
    show (S8x64x56x56.rowMajor (ix4 b cc h v)).val = (S8x64x3136.rowMajor (ix3 b cc (pix h v))).val
    rw [Shape.rowMajor_val_four, Shape.rowMajor_val_three]
    show ((b.val * 64 + cc.val) * 56 + h.val) * 56 + v.val = (b.val * 64 + cc.val) * 3136 + (56 * h.val + v.val)
    omega)

/-- The staged weights at (input channel, output channel) are the weights at (output channel, input channel, 0, 0). -/
theorem entry_weights_apply (c : Dev nD) (cc o : Fin 64) :
    V m c main_v2 (ix2 cc o) = m ((c : Thread nD τ).loc main_arg1) (ix4 o cc (0 : Fin 1) (0 : Fin 1)) := by
  rw [entry_weights, transpose_ix2_apply]
  exact shapeCast_apply _ _ _ _ (by
    show (S64x64x1x1.rowMajor (ix4 o cc (0 : Fin 1) (0 : Fin 1))).val = (S64x64.rowMajor (ix2 o cc)).val
    rw [Shape.rowMajor_val_four, Shape.rowMajor_val_two]
    show ((o.val * 64 + cc.val) * 1 + 0) * 1 + 0 = o.val * 64 + cc.val
    omega)

/-! ## The host operation after the region, and the kernel's result -/

/-- The region's function unflattened is the specification of the arguments. -/
theorem unflatten_region (c : Dev nD) :
    shapeCast S8x64x56x56 (region (V m c main_v0) (V m c main_v2)) shapeCasts_S8x64x3136_S8x64x56x56
      = dinf (m ((c : Thread nD τ).loc main_arg0)) (m ((c : Thread nD τ).loc main_arg1)) := by
  funext i
  obtain ⟨b, o, h, v, rfl⟩ : ∃ (b : Fin 8) (o : Fin 64) (h : Fin 56) (v : Fin 56), i = ix4 b o h v :=
    ⟨i 0, i 1, i 2, i 3, eq_ix4 i⟩
  refine (shapeCast_apply _ _ (ix4 b o h v) (ix3 b o (pix h v)) (by
    rw [Shape.rowMajor_val_four, Shape.rowMajor_val_three]
    show (b.val * 64 + o.val) * 3136 + (56 * h.val + v.val) = ((b.val * 64 + o.val) * 56 + h.val) * 56 + v.val
    omega)).trans ?_
  show regionAt (V m c main_v0) (V m c main_v2) b o (pix h v) = dinfAt _ _ b o h v
  unfold regionAt dinfAt
  refine Finset.sup_congr rfl fun cc _ => ?_
  rw [entry_input_apply m c b cc h v, entry_weights_apply m c cc o]

/-- The kernel's result after the host's last reshape. -/
theorem result_eq (c : Dev nD) :
    Pipeline.afterTail₀ cfgs (dats m) 0 (V0 m) [hostOps1] c main_v4
      = dinf (m ((c : Thread nD τ).loc main_arg0)) (m ((c : Thread nD τ).loc main_arg1)) := by
  unfold Pipeline.afterTail₀
  show StableHlo.after hostOps1 _ (Proc.devRef .tc main_v4) = _
  after_results
  refine Eq.trans ?_ (unflatten_region m c)
  exact congrArg (fun A => shapeCast S8x64x56x56 A shapeCasts_S8x64x3136_S8x64x56x56)
    ((Pipeline.withArrays_arr spec0 launch0.win.arr_inj c _ _ 2).trans (final m c))

/-- The kernel's run: every weakly fair execution ends with the result at the specification of the arguments, and
    the arguments unchanged. -/
theorem run : θ_run defs (onTc (τ := τ) (main (F := Ideal))) ⟨m, fun _ => 0, ρ⟩ fun r => ∀ c : Dev nD,
      r.2.mem ((c.tc : Thread nD τ).loc main_v4) = dinf (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v4 (Pipeline.mem_restRefs_of main_v4 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Region

end
-- ==== Proof.RefValue.lean ====
import proofs.«141475_j53429393162852_2_alg».proof.Proof.Gen.ReferenceIdeal.Read
import proofs.«141475_j53429393162852_2_alg».proof.Proof.LibHostMaxReduce
import proofs.«141475_j53429393162852_2_alg».proof.Proof.Spec
import Idealize.ShloMosaic.Lib.ValueIdx

/-!
# The reference computes the specification

The reference broadcasts the input to `[8, 64, 64, 56, 56]` (batch, output channel, input channel, row, column),
the weights likewise, adds them, takes absolute values, and reduces with a maximum from `-∞` over the input-channel
axis. At (b, o, h, v) the reduction is the supremum over the input channels `c` of the absolute sum at
(b, o, c, h, v), which is `|x(b, c, h, v) + w(o, c, 0, 0)|`.
-/

noncomputable section

namespace Cert.ReferenceIdeal.RefValue

open Cert.ReferenceIdeal Cert.ReferenceIdeal.Gen Cert.ReferenceIdeal.Read Idealize.ShloMosaic Idealize.ShloMosaic.ValueIdx
open Cert.DInf Cert.Lib

/-- The input-channel axis is dropped by the reduction. -/
theorem reduces_channel : S8x64x64x56x56.Reduces [2] S8x64x56x56 := by decide

/-- The result index (b, o, h, v) with input channel `k` put back is (b, o, k, h, v). -/
theorem lift_channel (b : Fin 8) (o : Fin 64) (h v : Fin 56) (k : Fin 64) :
    reduces_channel.lift (ix4 b o h v) k = ix5 b o k h v := by
  funext c; apply Fin.ext
  match c with
  | ⟨0, _⟩ => rfl
  | ⟨1, _⟩ => rfl
  | ⟨2, _⟩ => rfl
  | ⟨3, _⟩ => rfl
  | ⟨4, _⟩ => rfl

/-- The absolute outer sum at (b, o, c, h, v). -/
theorem abs_sum_apply (x : (⟨S8x64x56x56, .f32⟩ : BufTy).Contents (Elt Ideal)) (w : (⟨S64x64x1x1, .f32⟩ : BufTy).Contents (Elt Ideal))
    (b : Fin 8) (o c : Fin 64) (h v : Fin 56) :
    val_main_v6 (F := Ideal) x w (ix5 b o c h v) = gap (x (ix4 b c h v)) (w (ix4 o c (0 : Fin 1) (0 : Fin 1))) := by
  rw [val_main_v6_apply, val_main_v5_apply, val_main_v3_apply, val_main_v1_apply, val_main_v4_apply, val_main_v2_apply,
    val_main_v0_apply]
  show gap _ _ = gap _ _
  refine congrArg₂ gap (congrArg x ?_) (congrArg w ?_)
  · funext a; apply Fin.ext
    match a with
    | ⟨0, _⟩ => rfl
    | ⟨1, _⟩ => rfl
    | ⟨2, _⟩ => rfl
    | ⟨3, _⟩ => rfl
  · funext a; apply Fin.ext
    match a with
    | ⟨0, _⟩ => show (o.val * 64 + c.val) / 64 = o.val; have := c.isLt; omega
    | ⟨1, _⟩ => show (o.val * 64 + c.val) / 1 % 64 = c.val; have := c.isLt; omega
    | ⟨2, _⟩ => rfl
    | ⟨3, _⟩ => rfl

/-- The reference's result is the specification's. -/
theorem result_eq (x : (⟨S8x64x56x56, .f32⟩ : BufTy).Contents (Elt Ideal)) (w : (⟨S64x64x1x1, .f32⟩ : BufTy).Contents (Elt Ideal)) :
    val_main_v7 (F := Ideal) x w = dinf x w := by
  funext i
  obtain ⟨b, o, h, v, rfl⟩ : ∃ (b : Fin 8) (o : Fin 64) (h : Fin 56) (v : Fin 56), i = ix4 b o h v :=
    ⟨i 0, i 1, i 2, i 3, eq_ix4 i⟩
  unfold val_main_v7
  refine (hostReduce_maximumf_single_sup_of_bot (φ := .f32) _ _ reducesTo_S8x64x64x56x56_S8x64x56x56_d2 reduces_channel h_S_
    ofBits_f32_neg_inf (ix4 b o h v)).trans ?_
  show (Finset.univ.sup fun k : Fin 64 => _) = _
  rw [dinf_ix4]
  unfold dinfAt
  refine Finset.sup_congr rfl fun k _ => ?_
  rw [lift_channel b o h v k]
  exact abs_sum_apply x w b o k h v

end Cert.ReferenceIdeal.RefValue

end
-- ==== Proof.lean ====
/-
  The largest absolute sum over input channels, `out(b, o, h, v) = max over c of |x(b, c, h, v) + w(o, c, 0, 0)|`,
  for `x` of shape [8, 64, 56, 56] and `w` of shape [64, 64, 1, 1].

  The kernel flattens the two image axes (pixel `56 h + v`), transposes the weights to (input channel, output
  channel), and runs over the 8 batches; for one batch it walks the 64 input channels in eight runs of eight, taking
  for each run the maximum from `-∞` of the absolute outer sum over the run's channels, and keeps a running maximum
  from `-∞` of the eight runs; the host unflattens the pixel axis again. The reference broadcasts both operands to
  [8, 64, 64, 56, 56], adds, takes absolute values and reduces with a maximum from `-∞` over the input-channel axis.

  On the extended reals both are the supremum over the 64 input channels of the same numbers: a maximum is
  associative, commutative and idempotent with unit `-∞`, so the largest of 64 numbers may be taken eight at a time
  (Proof/Spec.lean). Nothing needs the inputs to be finite. The idealization rewrote no operation, so the kernel's
  idealized program is its own text read on the extended reals.
-/
import proofs.«141475_j53429393162852_2_alg».proof.Defs
import proofs.«141475_j53429393162852_2_alg».proof.Proof.Gen.Kernel
import proofs.«141475_j53429393162852_2_alg».proof.Proof.Gen.Kernel.Skeleton
import proofs.«141475_j53429393162852_2_alg».proof.Proof.Gen.Kernel.Launch
import proofs.«141475_j53429393162852_2_alg».proof.Proof.Gen.Kernel.Points
import proofs.«141475_j53429393162852_2_alg».proof.Proof.Gen.Kernel.Frame
import proofs.«141475_j53429393162852_2_alg».proof.Proof.Gen.KernelIdeal
import proofs.«141475_j53429393162852_2_alg».proof.Proof.Gen.KernelIdeal.Skeleton
import proofs.«141475_j53429393162852_2_alg».proof.Proof.Gen.KernelIdeal.Launch
import proofs.«141475_j53429393162852_2_alg».proof.Proof.Gen.KernelIdeal.Points
import proofs.«141475_j53429393162852_2_alg».proof.Proof.Gen.KernelIdeal.Frame
import proofs.«141475_j53429393162852_2_alg».proof.Proof.Gen.ReferenceIdeal
import proofs.«141475_j53429393162852_2_alg».proof.Proof.Gen.Pre_finite_inputs
import proofs.«141475_j53429393162852_2_alg».proof.Proof.Gen.ReferenceIdeal.Run
import proofs.«141475_j53429393162852_2_alg».proof.Proof.Gen.ReferenceIdeal.Read
import proofs.«141475_j53429393162852_2_alg».proof.Proof.Region
import proofs.«141475_j53429393162852_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the specification of the arguments: the kernel by
    its region's function unflattened, the reference by its maximum-reduction read as a supremum. -/
theorem algebraic : Cert.algebraic_KernelIdeal_ReferenceIdeal := by
  intro m ρ m' ρ' _ hagree
  refine ⟨fun c => Cert.DInf.dinf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Region.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
